-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S625000 32) (main_arg2 : IVec S625000 32) (main_arg3 : FVec F S128x128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 28
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S625000, .i32⟩
  | .hbm, ⟨8, _⟩ => ⟨S625000, .i1⟩
  | .hbm, ⟨9, _⟩ => ⟨S_, .i32⟩
  | .hbm, ⟨10, _⟩ => ⟨S625000, .i32⟩
  | .hbm, ⟨11, _⟩ => ⟨S625000, .i32⟩
  | .hbm, ⟨12, _⟩ => ⟨S625000, .i32⟩
  | .hbm, ⟨13, _⟩ => ⟨S625000x1, .i32⟩
  | .hbm, ⟨14, _⟩ => ⟨S625000x128, .f32⟩
  | .hbm, ⟨15, _⟩ => ⟨S_, .f32⟩
  | .hbm, ⟨16, _⟩ => ⟨S50000x128, .f32⟩
  | .hbm, ⟨17, _⟩ => ⟨S625000x1, .i32⟩
  | .hbm, ⟨18, _⟩ => ⟨S50000x128, .f32⟩
  | .hbm, ⟨19, _⟩ => ⟨S_, .f32⟩
  | .hbm, ⟨20, _⟩ => ⟨S625000, .f32⟩
  | .hbm, ⟨21, _⟩ => ⟨S_, .f32⟩
  | .hbm, ⟨22, _⟩ => ⟨S50000, .f32⟩
  | .hbm, ⟨23, _⟩ => ⟨S625000x1, .i32⟩
  | .hbm, ⟨24, _⟩ => ⟨S50000, .f32⟩
  | .hbm, ⟨25, _⟩ => ⟨S50000x1, .f32⟩
  | .hbm, ⟨26, _⟩ => ⟨S1x128, .f32⟩
  | .hbm, ⟨27, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S625000 : Shape := ⟨1, ![625000]⟩
abbrev S128x128 : Shape := ⟨2, ![128, 128]⟩
abbrev S128 : Shape := ⟨1, ![128]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S625000, .i32⟩
  | .hbm, ⟨2, _⟩ => ⟨S625000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S625000, .i32⟩
  | .hbm, ⟨8, _⟩ => ⟨S625000, .i1⟩
  | .hbm, ⟨9, _⟩ => ⟨S_, .i32⟩
  | .hbm, ⟨10, _⟩ => ⟨S625000, .i32⟩
  | .hbm, ⟨11, _⟩ => ⟨S625000, .i32⟩
  | .hbm, ⟨12, _⟩ => ⟨S625000, .i32⟩
  | .hbm, ⟨13, _⟩ => ⟨S625000x1, .i32⟩
  | .hbm, ⟨14, _⟩ => ⟨S625000x128, .f32⟩
  | .hbm, ⟨15, _⟩ => ⟨S_, .f32⟩
  | .hbm, ⟨16, _⟩ => ⟨S50000x128, .f32⟩
  | .hbm, ⟨17, _⟩ => ⟨S625000x1, .i32⟩
  | .hbm, ⟨18, _⟩ => ⟨S50000x128, .f32⟩
  | .hbm, ⟨19, _⟩ => ⟨S_, .f32⟩
  | .hbm, ⟨20, _⟩ => ⟨S625000, .f32⟩
  | .hbm, ⟨21, _⟩ => ⟨S_, .f32⟩
  | .hbm, ⟨22, _⟩ => ⟨S50000, .f32⟩
  | .hbm, ⟨23, _⟩ => ⟨S625000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageEntry.lean ====
/-
  One entry of a mean-aggregating graph layer.

  For a node p and an output feature q the layer's value is
      sum_k x(p,k) * Wself(k,q)  +  sum_k ( S(p,k) / max(deg p, 1) ) * Wneigh(k,q)  +  b(q),
  where S(p, .) is the sum of the feature rows of p's in-neighbours and deg p their number. Only ROW p of x and of S, the
  one number deg p, COLUMN q of the two weight matrices and the one number b(q) enter it. `entry` is that number as a function of
  exactly those data, on the extended reals (the quotient is the extended reals' division; "1" is the value of the 32-bit word
  0x3F800000, which is never evaluated: both programs spell the same word).
-/
import Idealize.ShloMosaic.PureOps.Ideal
import Idealize.ShloMosaic.Lib.ValueIdx

noncomputable section

namespace Cert.Sage

open Idealize.ShloMosaic

/-- The layer's value at one (node, feature) pair from the node's feature row `xr`, its neighbour-sum row `sr`, its degree `dp`,
    the feature's weight columns `wsc`, `wnc` and its bias `bq`. -/
def entry (xr sr : Fin 128 → EReal) (dp : EReal) (wsc wnc : Fin 128 → EReal) (bq : EReal) : EReal :=
  (∑ k : Fin 128, xr k * wsc k
    + ∑ k : Fin 128, Ideal.div (sr k) (max dp (Ideal.ofBits .f32 0x3F800000#32)) * wnc k) + bq

/-- `entry` respects equality of its six data. -/
theorem entry_congr {xr xr' sr sr' : Fin 128 → EReal} {dp dp' : EReal} {wsc wsc' wnc wnc' : Fin 128 → EReal} {bq bq' : EReal}
    (h1 : ∀ k, xr k = xr' k) (h2 : ∀ k, sr k = sr' k) (h3 : dp = dp') (h4 : ∀ k, wsc k = wsc' k) (h5 : ∀ k, wnc k = wnc' k)
    (h6 : bq = bq') : entry xr sr dp wsc wnc bq = entry xr' sr' dp' wsc' wnc' bq' := by
  rw [funext h1, funext h2, h3, funext h4, funext h5, h6]

end Cert.Sage

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.BlockEntry.lean ====
/-
  What the kernel body stores, entry by entry.

  At a grid point the body holds a block of 5000 nodes: their feature rows `xb`, their neighbour-sum rows `sb`, their degrees as a
  column `db`, the two whole weight matrices and the bias as a row. It stores
      xb · Wself  +  (sb / max(db, 1)) · Wneigh  +  bias,
  the degree column repeated along the feature axis, the bias row along the node axis, both products taken into a zero
  accumulator after a change of float format. On the extended reals a change of format is the identity and a product into a
  zero accumulator is the plain sum over the contracted coordinate, so the stored block's entry (p, q) is `Sage.entry` of row p
  of `xb` and `sb`, of the degree `db (p, 0)`, of column q of the two matrices and of the bias entry (0, q).
-/
import proofs.«126344_j55714315764196_1_alg».proof.Proof.Gen.KernelIdeal.Skeleton
import proofs.«126344_j55714315764196_1_alg».proof.Proof.SageEntry
import proofs.«126344_j55714315764196_1_alg».proof.Proof.LibDotSum
import proofs.«126344_j55714315764196_1_alg».proof.Proof.LibOuterSum
import Idealize.ShloMosaic.PureOps.Ideal.Laws
import Idealize.ShloMosaic.Lib.ValueIdx
import Idealize.ShloMosaic.Lib.ValueLayout
import Idealize.ShloMosaic.Lib.Pipeline.Value

noncomputable section

namespace Cert.Sage.Block

open Idealize.ShloMosaic Idealize.ShloMosaic.ValueIdx Cert.KernelIdeal Cert.KernelIdeal.Gen

/-- The body's contraction record: a [5000, 128] block times a [128, 128] matrix over the shared axis. -/
abbrev D : DotDims S5000x128 S128x128 S5000x128 := dot_S5000x128_S128x128_S5000x128_1_0_0_1_n_n

/-! The operand indices of that contraction at output (p, q) and contraction position k are (p, k) and (k, q). -/

theorem lhs0 (i : S5000x128.Idx) (k : D.contr.Idx) : (D.lhsIdx i k 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (i : S5000x128.Idx) (k : D.contr.Idx) : (D.lhsIdx i k 1).val = (k ⟨0, by decide⟩).val :=
  D.lhsIdx_val_of_single rfl i k
theorem rhs0 (i : S5000x128.Idx) (k : D.contr.Idx) : (D.rhsIdx i k 0).val = (k ⟨0, by decide⟩).val :=
  D.rhsIdx_val_of_single rfl i k
theorem rhs1 (i : S5000x128.Idx) (k : D.contr.Idx) : (D.rhsIdx i k 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- A block times a matrix into the zero accumulator, at (p, q): the sum over k of A (p, k) · B (k, q). -/
theorem product_apply {φ₁ φ₂ : FTy} (A : FVec Ideal S5000x128 φ₁) (B : FVec Ideal S128x128 φ₂) (p : Fin 5000) (q : Fin 128) :
    matmul D none A B (constant (F := Ideal) S5000x128 .f32 0x00000000#32) (ix2 p q) = ∑ k : Fin 128, A (ix2 p k) * B (ix2 k q) :=
  (Ideal.matmul_constant_zero_apply D none A B (ix2 p q)).trans
    (Cert.LibDotSum.sum_dot D rfl rfl lhs0 lhs1 rhs0 rhs1 A B p q)

/-- The stored block at (p, q). -/
theorem stored_apply (db : Vec Ideal S5000x1 .f32) (sb xb : Vec Ideal S5000x128 .f32) (ws wn : Vec Ideal S128x128 .f32)
    (bias : Vec Ideal S1x128 .f32) (p : Fin 5000) (q : Fin 128) :
    k0_pay1 (F := Ideal) db sb xb ws wn bias (ix2 p q)
      = Sage.entry (fun k => xb (ix2 p k)) (fun k => sb (ix2 p k)) (db (ix2 p (0 : Fin 1)))
          (fun k => ws (ix2 k q)) (fun k => wn (ix2 k q)) (bias (ix2 (0 : Fin 1) q)) := by
  unfold k0_pay1 Sage.entry
  refine Cert.LibDotSum.add3 ?_ ?_ ?_
  · exact product_apply _ _ p q
  · refine (product_apply _ _ p q).trans (Finset.sum_congr rfl fun k _ => ?_)
    refine congrArg (· * wn (ix2 k q)) ?_
    show Ideal.div (shapeCast S5000x128 sb _ (ix2 p k)) (broadcastTo S5000x128 _ _ (ix2 p k)) = _
    rw [shapeCast_self, Cert.LibOuterSum.bcast_col_apply]
    show Ideal.div _ (max (shapeCast S5000x1 db _ _) _) = _
    rw [shapeCast_self]
    rfl
  · refine (broadcastTo_1b_ab_apply _ _ p q).trans ?_
    rw [shapeCast_self]

end Cert.Sage.Block

end
-- ==== Proof.KernelArray.lean ====
/-
  The kernel's result array as one function of the arrays it is launched on.

  The grid has ten points; point t handles the 5000 nodes 5000·t … 5000·t + 4999. Its blocks of the node features, of the
  neighbour sums and of the degree column are those rows of their arrays; the two weight matrices and the bias row are whole
  at every point; it writes back rows 5000·t … 5000·t + 4999 of the result. Since an entry of the stored block depends only on
  the node's own rows, on the weight columns and on one bias entry (`Block.stored_apply`), block t of the result is block t of
  ONE array, `layer`: at (n, f) the layer's entry of row n of the features and of the sums, the degree of n, column f of the
  weights and bias f. The ten blocks tile the result (node n is in block n / 5000), so the result array ends holding `layer`
  of the six arrays the region is launched on. Everything up to the last two statements is about ARBITRARY arrays of the six
  shapes: what the region's arrays actually hold plays no part in it.
-/
import proofs.«126344_j55714315764196_1_alg».proof.Proof.Gen.KernelIdeal.Value
import proofs.«126344_j55714315764196_1_alg».proof.Proof.BlockEntry
import Idealize.ShloMosaic.Lib.Pipeline.Value
import Idealize.ShloMosaic.Lib.ValueIdx

noncomputable section

namespace Cert.Sage.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

theorem hz : (![0, 0] : Fin 2 → Nat) = fun _ => 0 := funext fun a => by fin_cases a <;> rfl

/-- The layer's output array from features `X`, neighbour sums `S`, a degree column `Dg`, the two weight matrices and a bias
    row `B`. -/
def layer (X S : S50000x128.Idx → EReal) (Dg : S50000x1.Idx → EReal) (Ws Wn : S128x128.Idx → EReal) (B : S1x128.Idx → EReal) :
    S50000x128.Idx → EReal := fun i =>
  Sage.entry (fun k => X (ix2 (i 0) k)) (fun k => S (ix2 (i 0) k)) (Dg (ix2 (i 0) (0 : Fin 1)))
    (fun k => Ws (ix2 k (i 1))) (fun k => Wn (ix2 k (i 1))) (B (ix2 (0 : Fin 1) (i 1)))

/-- The printed index maps over the ten points: the node-blocked windows (features, sums, degrees, result) are at block row t,
    block column 0; the weights and the bias are at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input window's block of an array, as rows of the array -/

/-- The feature window's block at point t of an array, entry y: the array at row 5000·t + y₀, column y₁. -/
theorem feat_blk (t : Fin cfg0.N) (A : S50000x128.Idx → EReal) (y : S5000x128.Idx) (i : S50000x128.Idx)
    (h0 : (i 0).val = t.val * 5000 + (y 0).val) (h1 : (i 1).val = (y 1).val) :
    (((cfg0.win 0).blk t).view.read (Elt Ideal) A : S5000x128.Idx → EReal) y = A i := by
  obtain ⟨e0, e1, -⟩ := idx_facts t
  rw [View.read_apply]
  refine congrArg A (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The neighbour-sum window's block likewise. -/
theorem sum_blk (t : Fin cfg0.N) (A : S50000x128.Idx → EReal) (y : S5000x128.Idx) (i : S50000x128.Idx)
    (h0 : (i 0).val = t.val * 5000 + (y 0).val) (h1 : (i 1).val = (y 1).val) :
    (((cfg0.win 1).blk t).view.read (Elt Ideal) A : S5000x128.Idx → EReal) y = A i := by
  obtain ⟨-, -, e0, e1, -⟩ := idx_facts t
  rw [View.read_apply]
  refine congrArg A (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

/-- The degree window's block: rows 5000·t … of the column. -/
theorem deg_blk (t : Fin cfg0.N) (A : S50000x1.Idx → EReal) (y : S5000x1.Idx) (i : S50000x1.Idx)
    (h0 : (i 0).val = t.val * 5000 + (y 0).val) :
    (((cfg0.win 2).blk t).view.read (Elt Ideal) A : S5000x1.Idx → EReal) y = A i := by
  obtain ⟨-, -, -, -, e0, e1, -⟩ := idx_facts t
  rw [View.read_apply]
  refine congrArg A (funext fun a => Fin.ext ?_)
  match a with
  | ⟨0, _⟩ => show win0_2.index t (0 : Fin 2) * 5000 + 1 * (y 0).val = (i 0).val; omega
  | ⟨1, _⟩ =>
    show win0_2.index t (1 : Fin 2) * 1 + 1 * (y 1).val = (i 1).val
    have hy : (y 1).val < 1 := (y 1).isLt
    have hi : (i 1).val < 1 := (i 1).isLt
    omega

/-- The self weights' block is the whole matrix. -/
theorem wself_blk (t : Fin cfg0.N) (A : S128x128.Idx → EReal) (y : S128x128.Idx) :
    (((cfg0.win 3).blk t).view.read (Elt Ideal) A : S128x128.Idx → EReal) y = A y := by
  obtain ⟨-, -, -, -, -, -, e0, e1, -⟩ := idx_facts t
  rw [View.read_apply]
  refine congrArg A (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The neighbour weights' block is the whole matrix. -/
theorem wneigh_blk (t : Fin cfg0.N) (A : S128x128.Idx → EReal) (y : S128x128.Idx) :
    (((cfg0.win 4).blk t).view.read (Elt Ideal) A : S128x128.Idx → EReal) y = A y := by
  obtain ⟨-, -, -, -, -, -, -, -, e0, e1, -⟩ := idx_facts t
  rw [View.read_apply]
  refine congrArg A (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The bias window's block is the whole row. -/
theorem bias_blk (t : Fin cfg0.N) (A : S1x128.Idx → EReal) (y : S1x128.Idx) :
    (((cfg0.win 5).blk t).view.read (Elt Ideal) A : S1x128.Idx → EReal) y = A y := by
  obtain ⟨-, -, -, -, -, -, -, -, -, -, e0, e1, -⟩ := idx_facts t
  rw [View.read_apply]
  refine congrArg A (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-! ## What a point's body leaves, read through the result's block -/

/-- From the six windows' blocks at point t of ANY six arrays, the body's stores read back are block t of `layer` of the arrays. -/
theorem stored_block (t : Fin cfg0.N) (X S : S50000x128.Idx → EReal) (Dg : S50000x1.Idx → EReal) (Ws Wn : S128x128.Idx → EReal)
    (B : S1x128.Idx → EReal) :
    (cfg0.win 6).cut (grid0.coords t)
        (out0_6 (F := Ideal) (((cfg0.win 0).blk t).view.read (Elt Ideal) X) (((cfg0.win 1).blk t).view.read (Elt Ideal) S)
          (((cfg0.win 2).blk t).view.read (Elt Ideal) Dg) (((cfg0.win 3).blk t).view.read (Elt Ideal) Ws)
          (((cfg0.win 4).blk t).view.read (Elt Ideal) Wn) (((cfg0.win 5).blk t).view.read (Elt Ideal) B))
      = ((cfg0.win 6).blk t).view.read (Elt Ideal) (layer X S Dg Ws Wn B) := by
  unfold out0_6
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, -, -, -, -, e0, e1⟩ := idx_facts t
  funext j
  obtain ⟨p, q, rfl⟩ : ∃ (p : Fin 5000) (q : Fin 128), j = ix2 p q := ⟨j 0, j 1, eq_ix2 j⟩
  have r0 : ((((cfg0.win 6).blk t).view.emb (ix2 p q)) 0).val = t.val * 5000 + p.val := by
    show win0_6.index t (0 : Fin 2) * 5000 + 1 * p.val = _; omega
  have r1 : ((((cfg0.win 6).blk t).view.emb (ix2 p q)) 1).val = q.val := by
    show win0_6.index t (1 : Fin 2) * 128 + 1 * q.val = _; omega
  rw [View.read_apply]
  show k0_pay1 (F := Ideal) _ _ _ _ _ _ (ix2 p q) = layer X S Dg Ws Wn B (((cfg0.win 6).blk t).view.emb (ix2 p q))
  refine (Block.stored_apply _ _ _ _ _ _ p q).trans ?_
  unfold layer
  refine Sage.entry_congr (fun k => ?_) (fun k => ?_) ?_ (fun k => ?_) (fun k => ?_) ?_
  · exact feat_blk t X (ix2 p k) _ r0 rfl
  · exact sum_blk t S (ix2 p k) _ r0 rfl
  · exact deg_blk t Dg (ix2 p (0 : Fin 1)) _ r0
  · exact (wself_blk t Ws (ix2 k q)).trans (congrArg Ws
      (funext fun a => Fin.ext (by match a with | ⟨0, _⟩ => rfl | ⟨1, _⟩ => exact r1.symm)))
  · exact (wneigh_blk t Wn (ix2 k q)).trans (congrArg Wn
      (funext fun a => Fin.ext (by match a with | ⟨0, _⟩ => rfl | ⟨1, _⟩ => exact r1.symm)))
  · exact (bias_blk t B (ix2 (0 : Fin 1) q)).trans (congrArg B
      (funext fun a => Fin.ext (by match a with | ⟨0, _⟩ => rfl | ⟨1, _⟩ => exact r1.symm)))

/-- Node n is in the block of point n / 5000: the ten blocks tile the result. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := idx_facts t
  refine ⟨t, flush0_6 t, ?_⟩
  show i ∈ ((View.whole main_v16).slice (win0_6.rect t)).set
  rw [View.set_slice_whole, Rect.mem_set_unit]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-! ## The run -/

variable (m : (ℓ : Loc nD τ sig) → Buf (Elt Ideal) ℓ) (ρ : Dev nD → PrngReg)

/-- The layer's output of the six arrays the region is launched on. -/
def out (c : Dev nD) : S50000x128.Idx → EReal :=
  layer (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- Point t writes back block t of `out`. -/
theorem flushed_eq (c : Dev nD) (t : Fin cfg0.N) :
    (dats m 0 c).flushed 6 t = ((cfg0.win 6).blk t).view.read (Elt Ideal) (out m c) :=
  (flushed6 m c t).trans (stored_block t (V m c (Pipeline.arrRef spec0 0)) (V m c (Pipeline.arrRef spec0 1))
    (V m c (Pipeline.arrRef spec0 2)) (V m c (Pipeline.arrRef spec0 3)) (V m c (Pipeline.arrRef spec0 4))
    (V m c (Pipeline.arrRef spec0 5)))

/-- The result array after the run is `out`. -/
theorem final (c : Dev nD) : (dats m 0 c).arrAt 6 cfg0.N = out m c :=
  (dats m 0 c).arrAt_eq_of_cover 6 (out m c) (fun t _ => flushed_eq m c t) covered

/-- The run: the result array ends holding `out`, the arguments unchanged. -/
theorem run : θ_run defs (onTc (τ := τ) (main (F := Ideal))) ⟨m, fun _ => 0, ρ⟩ fun r => ∀ c : Dev nD,
      r.2.mem ((c : Thread nD τ).loc main_v16) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Sage.Kernel

end
-- ==== Proof.RefEntry.lean ====
/-
  The reference's result, entry by entry.

  The reference computes the neighbour sums S and the degrees deg by a gather and two scatter-adds, then
      x · Wself  +  (S / max(deg, 1)[:, None]) · Wneigh  +  b
  with two whole-array products over the shared axis. Read at (p, q) through the generated one-operation-at-a-time lemmas,
  each product is the sum over k of its operands at (p, k) and (k, q), the degree column repeated along the feature axis reads
  deg p, the bias repeated along the node axis reads b q: the entry is `Sage.entry` of row p of x and of S, of deg p, of column
  q of the two weight matrices and of b q. The gather and the scatter-adds are never opened: S and deg stay the stages
  `val_main_v9` and `val_main_v13`.
-/
import proofs.«126344_j55714315764196_1_alg».proof.Proof.Gen.ReferenceIdeal.Read
import proofs.«126344_j55714315764196_1_alg».proof.Proof.SageEntry
import proofs.«126344_j55714315764196_1_alg».proof.Proof.LibDotSum

noncomputable section

namespace Cert.Sage.Ref

open Idealize.ShloMosaic Idealize.ShloMosaic.ValueIdx Cert.ReferenceIdeal Cert.ReferenceIdeal.Read

/-! The generated index functions at (p, q), in coordinates. -/

theorem lidx19 (p : Fin 50000) (q k : Fin 128) : lidx_main_v19 (ix2 p q) k = ix2 p k :=
  funext fun a => by match a with | ⟨0, _⟩ => rfl | ⟨1, _⟩ => rfl
theorem ridx19 (p : Fin 50000) (q k : Fin 128) : ridx_main_v19 (ix2 p q) k = ix2 k q :=
  funext fun a => by match a with | ⟨0, _⟩ => rfl | ⟨1, _⟩ => rfl
theorem lidx20 (p : Fin 50000) (q k : Fin 128) : lidx_main_v20 (ix2 p q) k = ix2 p k :=
  funext fun a => by match a with | ⟨0, _⟩ => rfl | ⟨1, _⟩ => rfl
theorem ridx20 (p : Fin 50000) (q k : Fin 128) : ridx_main_v20 (ix2 p q) k = ix2 k q :=
  funext fun a => by match a with | ⟨0, _⟩ => rfl | ⟨1, _⟩ => rfl
theorem idx_deg (p : Fin 50000) (k : Fin 128) : idx_main_v16 (idx_main_v17 (ix2 p k)) = ix1 p :=
  funext fun a => by match a with | ⟨0, _⟩ => rfl
theorem idx_bias (p : Fin 50000) (q : Fin 128) : idx_main_v22 (idx_main_v23 (ix2 p q)) = ix1 q :=
  funext fun a => by match a with | ⟨0, _⟩ => rfl

/-- The divisor at (p, k): the larger of deg p and one. -/
theorem divisor_apply (x2 : (⟨S625000, .i32⟩ : BufTy).Contents (Elt Ideal)) (p : Fin 50000) (k : Fin 128) :
    val_main_v17 (F := Ideal) x2 (ix2 p k) = max (val_main_v13 (F := Ideal) x2 (ix1 p)) (Ideal.ofBits .f32 0x3F800000#32) := by
  rw [val_main_v17_apply, val_main_v16_apply, val_main_v15_apply, val_main_v14_apply, val_main_cst_3_apply, idx_deg]
  rfl

/-- The reference's result at (p, q). -/
theorem result_apply (x0 : (⟨S50000x128, .f32⟩ : BufTy).Contents (Elt Ideal)) (x1 x2 : (⟨S625000, .i32⟩ : BufTy).Contents (Elt Ideal))
    (x3 x4 : (⟨S128x128, .f32⟩ : BufTy).Contents (Elt Ideal)) (x5 : (⟨S128, .f32⟩ : BufTy).Contents (Elt Ideal)) (p : Fin 50000) (q : Fin 128) :
    val_main_v24 (F := Ideal) x0 x1 x2 x3 x4 x5 (ix2 p q)
      = Sage.entry (fun k => x0 (ix2 p k)) (fun k => val_main_v9 (F := Ideal) x0 x1 x2 (ix2 p k)) (val_main_v13 (F := Ideal) x2 (ix1 p))
          (fun k => x3 (ix2 k q)) (fun k => x4 (ix2 k q)) (x5 (ix1 q)) := by
  unfold Sage.entry
  rw [val_main_v24_apply, val_main_v21_apply]
  refine Cert.LibDotSum.add3 ?_ ?_ ?_
  · rw [val_main_v19_apply]
    exact Finset.sum_congr rfl fun k _ => by rw [lidx19, ridx19]
  · rw [val_main_v20_apply]
    refine Finset.sum_congr rfl fun k _ => ?_
    rw [lidx20, ridx20, val_main_v18_apply, divisor_apply]
    rfl
  · rw [val_main_v23_apply, val_main_v22_apply, idx_bias]

end Cert.Sage.Ref

end
-- ==== Proof.Bridge.lean ====
/-
  The kernel's array and the reference's are one function of the arguments.

  Before its one region the kernel program computes, on the host, the neighbour sums and the degrees by the SAME gather and
  scatter-adds as the reference (the same operations on the same arguments, so the same arrays: nothing of them is opened),
  lays the degrees out as a column and the bias as a row. So the arrays the region is launched on are: the features, the
  reference's neighbour sums, the reference's degrees as a column, the two weight matrices, the bias as a row — and the
  kernel's result `Kernel.out`, entry by entry the layer's `Sage.entry` of those, is the reference's result entry by entry
  (`Ref.result_apply`).
-/
import proofs.«126344_j55714315764196_1_alg».proof.Proof.KernelArray
import proofs.«126344_j55714315764196_1_alg».proof.Proof.RefEntry
import proofs.«126344_j55714315764196_1_alg».proof.Proof.LibOuterSum
import Idealize.ShloMosaic.Lib.StableHlo.Run
import Idealize.ShloMosaic.Lib.ValueLayout

noncomputable section

namespace Cert.Sage.Bridge

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-! ## The arrays the host prefix leaves for the region -/

/-- The neighbour sums the region is launched on are the reference's. -/
theorem sums_eq (c : Dev nD) : (V m c main_v9 : S50000x128.Idx → EReal)
    = Cert.ReferenceIdeal.Read.val_main_v9 (F := Ideal) (m ((c : Thread nD τ).loc main_arg0)) (m ((c : Thread nD τ).loc main_arg1))
        (m ((c : Thread nD τ).loc main_arg2)) := by
  dsimp only [Gen.V, Gen.hostOps0]
  after_results
  rfl

/-- The degree column is the reference's degrees laid out as [50000, 1]. -/
theorem degcol_eq (c : Dev nD) : (V m c main_v14 : S50000x1.Idx → EReal)
    = shapeCast S50000x1 (Cert.ReferenceIdeal.Read.val_main_v13 (F := Ideal) (m ((c : Thread nD τ).loc main_arg2)))
        Facts₀.shapeCasts_S50000_S50000x1 := by
  dsimp only [Gen.V, Gen.hostOps0]
  after_results
  rfl

/-- The bias row is the bias laid out as [1, 128]. -/
theorem biasrow_eq (c : Dev nD) : (V m c main_v15 : S1x128.Idx → EReal)
    = shapeCast S1x128 (m ((c : Thread nD τ).loc main_arg5)) Facts₀.shapeCasts_S128_S1x128 := by
  dsimp only [Gen.V, Gen.hostOps0]
  after_results
  rfl

/-! ## The two results -/

/-- The layer's output of the features, the reference's neighbour sums, its degrees as a column, the weights and the bias as a
    row is the reference's result stage, entry by entry: a column [n, 1] of a vector reads the vector's entry n at (n, 0), a
    row [1, f] its entry f at (0, f). -/
theorem layer_eq_ref (x0 : S50000x128.Idx → EReal) (x1 x2 : (⟨Cert.ReferenceIdeal.S625000, .i32⟩ : BufTy).Contents (Elt Ideal))
    (x3 x4 : S128x128.Idx → EReal) (x5 : S128.Idx → EReal) :
    Kernel.layer x0 (Cert.ReferenceIdeal.Read.val_main_v9 (F := Ideal) x0 x1 x2)
        (shapeCast S50000x1 (Cert.ReferenceIdeal.Read.val_main_v13 (F := Ideal) x2) Facts₀.shapeCasts_S50000_S50000x1) x3 x4
        (shapeCast S1x128 x5 Facts₀.shapeCasts_S128_S1x128)
      = Cert.ReferenceIdeal.Read.val_main_v24 (F := Ideal) x0 x1 x2 x3 x4 x5 := by
  funext i
  obtain ⟨p, q, rfl⟩ : ∃ (p : Fin 50000) (q : Fin 128), i = ix2 p q := ⟨i 0, i 1, eq_ix2 i⟩
  rw [Ref.result_apply]
  unfold Kernel.layer
  refine Sage.entry_congr (fun k => rfl) (fun k => rfl) ?_ (fun k => rfl) (fun k => rfl) ?_
  · exact Cert.LibOuterSum.col_of_vec_apply _ _ p (0 : Fin 1)
  · exact shapeCast_a_1a_apply _ _ (0 : Fin 1) q

/-- The kernel's result array is the reference's result stage of the same arguments. -/
theorem out_eq_ref (c : Dev nD) : Kernel.out m c
    = Cert.ReferenceIdeal.Read.val_main_v24 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  have e0 : V m c (Pipeline.arrRef spec0 0) = m ((c : Thread nD τ).loc main_arg0) := V_main_arg0 m c
  have e1 : (V m c (Pipeline.arrRef spec0 1) : S50000x128.Idx → EReal) = _ := sums_eq m c
  have e2 : (V m c (Pipeline.arrRef spec0 2) : S50000x1.Idx → EReal) = _ := degcol_eq m c
  have e3 : V m c (Pipeline.arrRef spec0 3) = m ((c : Thread nD τ).loc main_arg3) := V_main_arg3 m c
  have e4 : V m c (Pipeline.arrRef spec0 4) = m ((c : Thread nD τ).loc main_arg4) := V_main_arg4 m c
  have e5 : (V m c (Pipeline.arrRef spec0 5) : S1x128.Idx → EReal) = _ := biasrow_eq m c
  unfold Kernel.out
  rw [e0, e1, e2, e3, e4, e5]
  exact layer_eq_ref _ _ _ _ _ _

end Cert.Sage.Bridge

end
-- ==== Proof.lean ====
/-
  A mean-aggregating graph layer (node features x, edges src → dst, weights W_self and W_neigh, bias b):
      out = x · W_self + (S / max(deg, 1)) · W_neigh + b,
  S the per-node sum of the in-neighbours' feature rows and deg the per-node number of in-edges. The kernel program and the
  reference compute S and deg on the host by the same gather and scatter-adds; the kernel program then does the rest in one
  region over ten blocks of 5000 nodes, the reference with two whole-array products.

  The three frames: the kernel programs' are the generated frame certificates; the reference's is its generated run with the
  result dropped. The idealized kernel is the kernel's own text read on the extended reals (no rewrite was applied), so
  `preserves` has nothing to state. `algebraic`: on the extended reals a change of float format is the identity and a product
  into a zero accumulator is a plain sum, so each entry of the kernel's result is the layer's entry (Proof/BlockEntry.lean,
  Proof/KernelArray.lean), which is the reference's entry (Proof/RefEntry.lean, Proof/Bridge.lean). The two sides are the
  same expression entry by entry — same order of the two sums and the bias, same divisor — so no law of arithmetic is used
  and the precondition is never opened.
-/
import proofs.«126344_j55714315764196_1_alg».proof.Defs
import proofs.«126344_j55714315764196_1_alg».proof.Proof.Gen.Kernel
import proofs.«126344_j55714315764196_1_alg».proof.Proof.Gen.Kernel.Skeleton
import proofs.«126344_j55714315764196_1_alg».proof.Proof.Gen.Kernel.Launch
import proofs.«126344_j55714315764196_1_alg».proof.Proof.Gen.Kernel.Points
import proofs.«126344_j55714315764196_1_alg».proof.Proof.Gen.Kernel.Frame
import proofs.«126344_j55714315764196_1_alg».proof.Proof.Gen.KernelIdeal
import proofs.«126344_j55714315764196_1_alg».proof.Proof.Gen.KernelIdeal.Skeleton
import proofs.«126344_j55714315764196_1_alg».proof.Proof.Gen.KernelIdeal.Launch
import proofs.«126344_j55714315764196_1_alg».proof.Proof.Gen.KernelIdeal.Points
import proofs.«126344_j55714315764196_1_alg».proof.Proof.Gen.KernelIdeal.Frame
import proofs.«126344_j55714315764196_1_alg».proof.Proof.Gen.ReferenceIdeal
import proofs.«126344_j55714315764196_1_alg».proof.Proof.Gen.Pre_finite_inputs
import proofs.«126344_j55714315764196_1_alg».proof.Proof.Gen.KernelIdeal.Value
import proofs.«126344_j55714315764196_1_alg».proof.Proof.Gen.ReferenceIdeal.Run
import proofs.«126344_j55714315764196_1_alg».proof.Proof.Gen.ReferenceIdeal.Read
import proofs.«126344_j55714315764196_1_alg».proof.Proof.KernelArray
import proofs.«126344_j55714315764196_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments the kernel's result array ends at the layer's output of the arrays the region is
    launched on, the reference's at its result stage of the arguments: one array (`Bridge.out_eq_ref`). -/
theorem algebraic : Cert.algebraic_KernelIdeal_ReferenceIdeal := by
  intro m ρ m' ρ' _ hagree
  refine ⟨fun c => Cert.Sage.Kernel.out m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2.1, (hagree c).2.2.2.2.2]
  exact (Cert.Sage.Bridge.out_eq_ref m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
